-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S8192x1024 .f32) (main_arg7 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) (main_arg5 : FVec F S1024 .f32) (main_arg6 : FVec F S8192x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S64x128 : Shape := ⟨2, ![64, 128]⟩
abbrev S8x128 : Shape := ⟨2, ![8, 128]⟩
abbrev S1024x1 : Shape := ⟨2, ![1024, 1]⟩
abbrev S8192x1 : Shape := ⟨2, ![8192, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S64x128, .f32⟩
  | .hbm, ⟨11, _⟩ => ⟨S8192x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S8x128, .f32⟩
  | .local _ .vmem, ⟨13, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  shapeCasts_S64x128_S8192x1 : S64x128.ShapeCasts S8192x1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .f32 = 32 ∨ (Rect.block (s := S8192x1024) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S64x128.size a
  hwx0_8 : ∀ i : grid0.Coords, EltTy.bits .f32 = 32 ∨ (Rect.block (s := S64x128) S8x128.size (cc0_transform_8 i) (hinb0_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2 : Shape := ⟨2, ![8192, 2]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x2, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x2_S8192_d1 : S8192x2.ReducesTo [1] S8192
  bcast_S_S8192x1 : S_.BroadcastsInDim S8192x1 (![] : Fin 0 → Fin S8192x1.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.HalfSum.lean ====
/-
  The value both programs compute, one output row at a time.

  For row n of the 8192 rows, with A = gAB, B = gAG (each 8192 x 1024), U = Wab, W = Wag (each 1024 x 1024),
  bias vectors u, w (each 1024 long) and S = sAB, T = sAG (each 8192 x 1024):

      rowMean n = ( sum_k (sum_j A[n,j] U[j,k] + u[k]) * (sum_j B[n,j] W[j,k] + w[k])  +  sum_k S[n,k] T[n,k] ) * 1/2

  on the extended reals. The kernel multiplies by the word of 1/2; the reference adds the two row sums to a zero
  initial value and divides by the word of 2. Dividing an extended real by the real 2 is multiplying it by the real
  1/2, and adding the zero word changes nothing, so the two agree on every extended real: no finiteness is used.
-/
import Idealize.ShloMosaic.PureOps.Ideal
import Idealize.ShloMosaic.PureOps.Ideal.Laws
import Idealize.ShloMosaic.Lib.ValueIdx

noncomputable section

namespace Cert.HalfSum

open Idealize.ShloMosaic Idealize.ShloMosaic.ValueIdx

/-- The f32 word 0x40000000 is the real number 2. -/
theorem two_val : Ideal.ofBits .f32 0x40000000#32 = ((2 : ℝ) : EReal) := by
  simp [Ideal.ofBits, Ideal.ieee, -EReal.coe_mul]; norm_num

/-- The f32 word 0x3F000000 is the real number 1/2. -/
theorem half_val : Ideal.ofBits .f32 0x3F000000#32 = ((1 / 2 : ℝ) : EReal) := by
  simp [Ideal.ofBits, Ideal.ieee, -EReal.coe_mul]; norm_num

/-- The zero word plus x, divided by the word of 2, is x times the word of 1/2, for every extended real x. -/
theorem zero_add_div_two (x : EReal) :
    Ideal.div (Ideal.ofBits .f32 0x00000000#32 + x) (Ideal.ofBits .f32 0x40000000#32)
      = x * Ideal.ofBits .f32 0x3F000000#32 := by
  rw [Ideal.ofBits_zero_f32, zero_add, two_val, half_val, Ideal.div_coe (by norm_num : (2 : ℝ) ≠ 0)]

/-- Row n's value: half the sum of the two row-wise dot products, the first between the two projected rows
    (each a matrix-vector product plus a bias), the second between the two given rows. The biases are passed as
    functions of the lane, since the two programs hold them in arrays of different shapes. -/
def rowMean (A B : (⟨2, ![8192, 1024]⟩ : Shape).Idx → EReal) (U W : (⟨2, ![1024, 1024]⟩ : Shape).Idx → EReal)
    (u w : Fin 1024 → EReal) (S T : (⟨2, ![8192, 1024]⟩ : Shape).Idx → EReal) (n : Fin 8192) : EReal :=
  ((∑ k : Fin 1024, ((∑ j : Fin 1024, A (ix2 n j) * U (ix2 j k)) + u k) * ((∑ j : Fin 1024, B (ix2 n j) * W (ix2 j k)) + w k))
    + ∑ k : Fin 1024, S (ix2 n k) * T (ix2 n k)) * Ideal.ofBits .f32 0x3F000000#32

end Cert.HalfSum

end
-- ==== Proof.LibConcatCols.lean ====
/-
  Two columns joined side by side, read at an index: the concatenation along axis 1 of two [n, 1] arrays is the
  [n, 2] array whose column 0 is the first operand and whose column 1 is the second.
-/
import Idealize.ShloMosaic.Lib.Pipeline.Value
import Idealize.ShloMosaic.Lib.ValueIdx

namespace Cert.LibConcatCols

open Idealize.ShloMosaic Idealize.ShloMosaic.ValueIdx

variable {α : Type}

/-- Column 0 of the joined array is the first operand. -/
theorem concat_cols_left {n : ℕ} (x y : (⟨2, ![n, 1]⟩ : Shape).Idx → α)
    (h : Shape.Concatenates [(⟨2, ![n, 1]⟩ : Shape), (⟨2, ![n, 1]⟩ : Shape)] ⟨2, ![n, 2]⟩ 1) (p : Fin n) :
    concatenate ⟨2, ![n, 2]⟩ 1 [⟨⟨2, ![n, 1]⟩, x⟩, ⟨⟨2, ![n, 1]⟩, y⟩] h (ix2 p (0 : Fin 2)) = x (ix2 p (0 : Fin 1)) :=
  concatenate_pair_apply_left 1 x y h (ix2 p (0 : Fin 2)) rfl (ix2 p (0 : Fin 1)) (fun b => by
    match b with
    | ⟨0, _⟩ => rfl
    | ⟨1, _⟩ => rfl)

/-- Column 1 of the joined array is the second operand. -/
theorem concat_cols_right {n : ℕ} (x y : (⟨2, ![n, 1]⟩ : Shape).Idx → α)
    (h : Shape.Concatenates [(⟨2, ![n, 1]⟩ : Shape), (⟨2, ![n, 1]⟩ : Shape)] ⟨2, ![n, 2]⟩ 1) (p : Fin n) :
    concatenate ⟨2, ![n, 2]⟩ 1 [⟨⟨2, ![n, 1]⟩, x⟩, ⟨⟨2, ![n, 1]⟩, y⟩] h (ix2 p (1 : Fin 2)) = y (ix2 p (0 : Fin 1)) :=
  concatenate_pair_apply_right 1 x y h (ix2 p (1 : Fin 2)) rfl rfl (ix2 p (0 : Fin 1)) (fun b hb => by
    match b, hb with
    | ⟨0, _⟩, _ => rfl
    | ⟨1, _⟩, hb => exact absurd rfl hb) rfl

end Cert.LibConcatCols
-- ==== Proof.RefRows.lean ====
/-
  The reference's result is rowMean, row by row.

  Read one operation at a time: each projected entry (n, k) is the dot product of row n with column k plus the bias
  at k; the product of the two projections is summed over k from a zero initial value, and so is the product of the
  two given rows; the two sums are put side by side as a two-entry row, summed again from zero, and divided by 2.
  The zero initial values drop out and the division by 2 is the multiplication by 1/2.
-/
import proofs.«105933_j35811437314203_2_alg».proof.Proof.Gen.ReferenceIdeal.Read
import proofs.«105933_j35811437314203_2_alg».proof.Proof.HalfSum
import proofs.«105933_j35811437314203_2_alg».proof.Proof.LibConcatCols

noncomputable section

namespace Cert.ReferenceIdeal.RefRows

open Cert.ReferenceIdeal Cert.ReferenceIdeal.Read Idealize.ShloMosaic Idealize.ShloMosaic.ValueIdx Cert.HalfSum

variable (x0 x1 : S8192x1024.Idx → EReal) (x2 x3 : S1024x1024.Idx → EReal) (x4 x5 : S1024.Idx → EReal)
  (x6 x7 : S8192x1024.Idx → EReal)

/-! The index maps of the generated stages, at indices given by coordinates. -/

theorem lidx0 (p : Fin 8192) (c k : Fin 1024) : lidx_main_v0 (ix2 p c) k = ix2 p k :=
  funext fun a => by match a with | ⟨0, _⟩ => rfl | ⟨1, _⟩ => rfl
theorem ridx0 (p : Fin 8192) (c k : Fin 1024) : ridx_main_v0 (ix2 p c) k = ix2 k c :=
  funext fun a => by match a with | ⟨0, _⟩ => rfl | ⟨1, _⟩ => rfl
theorem lidx4 (p : Fin 8192) (c k : Fin 1024) : lidx_main_v4 (ix2 p c) k = ix2 p k :=
  funext fun a => by match a with | ⟨0, _⟩ => rfl | ⟨1, _⟩ => rfl
theorem ridx4 (p : Fin 8192) (c k : Fin 1024) : ridx_main_v4 (ix2 p c) k = ix2 k c :=
  funext fun a => by match a with | ⟨0, _⟩ => rfl | ⟨1, _⟩ => rfl
theorem idx21 (p : Fin 8192) (c : Fin 1024) : idx_main_v1 (idx_main_v2 (ix2 p c)) = ix1 c :=
  funext fun a => by match a with | ⟨0, _⟩ => rfl
theorem idx65 (p : Fin 8192) (c : Fin 1024) : idx_main_v5 (idx_main_v6 (ix2 p c)) = ix1 c :=
  funext fun a => by match a with | ⟨0, _⟩ => rfl
theorem idx9 (p : Fin 8192) (k : Fin 1024) : idx_main_v9 (ix1 p) k = ix2 p k :=
  funext fun a => by match a with | ⟨0, _⟩ => rfl | ⟨1, _⟩ => rfl
theorem idx12 (p : Fin 8192) (k : Fin 1024) : idx_main_v12 (ix1 p) k = ix2 p k :=
  funext fun a => by match a with | ⟨0, _⟩ => rfl | ⟨1, _⟩ => rfl
theorem idx10 (p : Fin 8192) (u : Fin 1) : idx_main_v10 (ix2 p u) = ix1 p :=
  funext fun a => by match a with | ⟨0, _⟩ => rfl
theorem idx13 (p : Fin 8192) (u : Fin 1) : idx_main_v13 (ix2 p u) = ix1 p :=
  funext fun a => by match a with | ⟨0, _⟩ => rfl
theorem idx16 (p : Fin 8192) (u : Fin 1) : idx_main_v16 (ix2 p u) = ix1 p :=
  funext fun a => by match a with | ⟨0, _⟩ => rfl
theorem idx15 (p : Fin 8192) (k : Fin 2) : idx_main_v15 (ix1 p) k = ix2 p k :=
  funext fun a => by match a with | ⟨0, _⟩ => rfl | ⟨1, _⟩ => rfl

/-- A projected entry: row p of the left operand times column k of the weights, plus the bias at k. -/
theorem proj0 (p : Fin 8192) (k : Fin 1024) :
    val_main_v3 (F := Ideal) x0 x2 x4 (ix2 p k) = (∑ j : Fin 1024, x0 (ix2 p j) * x2 (ix2 j k)) + x4 (ix1 k) := by
  rw [val_main_v3_apply, val_main_v0_apply, val_main_v2_apply, val_main_v1_apply, idx21]
  simp only [lidx0, ridx0]
  rfl

theorem proj1 (p : Fin 8192) (k : Fin 1024) :
    val_main_v7 (F := Ideal) x1 x3 x5 (ix2 p k) = (∑ j : Fin 1024, x1 (ix2 p j) * x3 (ix2 j k)) + x5 (ix1 k) := by
  rw [val_main_v7_apply, val_main_v4_apply, val_main_v6_apply, val_main_v5_apply, idx65]
  simp only [lidx4, ridx4]
  rfl

/-- The first row sum, in its column form. -/
theorem col0 (p : Fin 8192) (u : Fin 1) :
    val_main_v10 (F := Ideal) x0 x1 x2 x3 x4 x5 (ix2 p u)
      = Ideal.ofBits .f32 0x00000000#32 + ∑ k : Fin 1024, ((∑ j : Fin 1024, x0 (ix2 p j) * x2 (ix2 j k)) + x4 (ix1 k))
          * ((∑ j : Fin 1024, x1 (ix2 p j) * x3 (ix2 j k)) + x5 (ix1 k)) := by
  rw [val_main_v10_apply, idx10, val_main_v9_apply]
  simp only [idx9, val_main_v8_apply, proj0, proj1]
  rfl

/-- The second row sum, in its column form. -/
theorem col1 (p : Fin 8192) (u : Fin 1) :
    val_main_v13 (F := Ideal) x6 x7 (ix2 p u)
      = Ideal.ofBits .f32 0x00000000#32 + ∑ k : Fin 1024, x6 (ix2 p k) * x7 (ix2 p k) := by
  rw [val_main_v13_apply, idx13, val_main_v12_apply]
  simp only [idx12, val_main_v11_apply]
  rfl

/-- The reference's result at row p is rowMean at p. -/
theorem ref_rows : val_main_v18 (F := Ideal) x0 x1 x2 x3 x4 x5 x6 x7
    = fun i => rowMean x0 x1 x2 x3 (fun k => x4 (ix1 k)) (fun k => x5 (ix1 k)) x6 x7 ⟨(i 0).val, (i 0).isLt⟩ := by
  funext i
  obtain ⟨p, u, rfl⟩ : ∃ (p : Fin 8192) (u : Fin 1), i = ix2 p u := ⟨i 0, i 1, eq_ix2 i⟩
  rw [val_main_v18_apply, val_main_v16_apply, idx16, val_main_v15_apply, val_main_v17_apply, Fin.sum_univ_two]
  simp only [idx15]
  unfold val_main_v14
  rw [Cert.LibConcatCols.concat_cols_left, Cert.LibConcatCols.concat_cols_right, col0, col1]
  simp only [Ideal.ofBits_zero_f32, zero_add]
  show Ideal.div (Ideal.ofBits .f32 0x00000000#32 + _) (Ideal.ofBits .f32 0x40000000#32) = _
  rw [zero_add_div_two]
  rfl

end Cert.ReferenceIdeal.RefRows

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.LibTileCol.lean ====
/-
  A column re-laid as a tile and back, read at an index. An [n, 1] column and an [a, b] tile with n = a * b list
  their entries in the same row-major order: entry (r, c) of the tile is entry r * b + c of the column.
-/
import Idealize.ShloMosaic.Lib.Pipeline.Value
import Idealize.ShloMosaic.Lib.ValueIdx

namespace Cert.LibTileCol

open Idealize.ShloMosaic Idealize.ShloMosaic.ValueIdx

variable {α : Type}

/-- The column [n, 1] cast to the tile [a, b] reads, at (r, c), the column's entry q = r * b + c. -/
theorem shapeCast_n1_ab_apply {n a b : ℕ} (x : (⟨2, ![n, 1]⟩ : Shape).Idx → α)
    (h : (⟨2, ![n, 1]⟩ : Shape).ShapeCasts ⟨2, ![a, b]⟩) (r : Fin a) (c : Fin b) (q : Fin n)
    (hq : q.val = r.val * b + c.val) :
    shapeCast ⟨2, ![a, b]⟩ x h (ix2 r c) = x (ix2 q (0 : Fin 1)) :=
  shapeCast_apply x h _ _ (by
    rw [Shape.rowMajor_val_two, Shape.rowMajor_val_two]
    show q.val * 1 + 0 = r.val * b + c.val
    omega)

/-- The tile [a, b] cast to the column [n, 1] reads, at (q, u) with q = r * b + c, the tile's entry (r, c). -/
theorem shapeCast_ab_n1_apply {n a b : ℕ} (x : (⟨2, ![a, b]⟩ : Shape).Idx → α)
    (h : (⟨2, ![a, b]⟩ : Shape).ShapeCasts ⟨2, ![n, 1]⟩) (q : Fin n) (u : Fin 1) (r : Fin a) (c : Fin b)
    (hq : q.val = r.val * b + c.val) :
    shapeCast ⟨2, ![n, 1]⟩ x h (ix2 q u) = x (ix2 r c) :=
  shapeCast_apply x h _ _ (by
    have hu : u.val = 0 := by omega
    rw [Shape.rowMajor_val_two, Shape.rowMajor_val_two]
    show r.val * b + c.val = q.val * 1 + u.val
    omega)

end Cert.LibTileCol
-- ==== Proof.BodyRows.lean ====
/-
  What the kernel body stores, entry by entry.

  The body holds 1024 rows at a time. For local row q it forms the two projected rows (matrix product plus the bias
  row broadcast down the rows), sums their product over the lanes, sums the product of the two given rows over the
  lanes, adds the two sums and multiplies by 1/2. The resulting column of 1024 entries is stored as an 8 x 128 tile
  in row-major order, so tile entry (r, c) is the value of local row q = r * 128 + c.
-/
import proofs.«105933_j35811437314203_2_alg».proof.Proof.Gen.KernelIdeal.Skeleton
import proofs.«105933_j35811437314203_2_alg».proof.Proof.LibKeepdims
import proofs.«105933_j35811437314203_2_alg».proof.Proof.LibMatmulPlain
import proofs.«105933_j35811437314203_2_alg».proof.Proof.LibTileCol
import Idealize.ShloMosaic.Lib.ValueLayout
import Idealize.ShloMosaic.Lib.Pipeline.Value

noncomputable section

namespace Cert.KernelIdeal.BodyRows

open Cert.KernelIdeal Cert.KernelIdeal.Gen Idealize.ShloMosaic Idealize.ShloMosaic.ValueIdx

/-- Entry (p, c) of the body's matrix product into the zero accumulator: row p of the left block times column c
    of the weights. -/
theorem product_entry (lhs rhs : FVec Ideal S1024x1024 .f32) (p c : Fin 1024) :
    matmul dot_S1024x1024_S1024x1024_S1024x1024_1_0_0_1_n_n (some .fp32) lhs rhs
        (constant (F := Ideal) S1024x1024 .f32 0x00000000#32) (ix2 p c)
      = ∑ k : Fin 1024, lhs (ix2 p k) * rhs (ix2 k c) :=
  Idealize.ShloMosaic.MatmulPlain.matmul_zero_apply dot_S1024x1024_S1024x1024_S1024x1024_1_0_0_1_n_n (some .fp32) rfl rfl
    (fun j q => by
      unfold DotDims.lhsIdx
      rw [dif_neg (show ¬(0 : Fin S1024x1024.rank) ∈ dot_S1024x1024_S1024x1024_S1024x1024_1_0_0_1_n_n.lhsBatch by decide),
        dif_pos (show (0 : Fin S1024x1024.rank) ∈ dot_S1024x1024_S1024x1024_S1024x1024_1_0_0_1_n_n.lhsNonContracting by decide)]
      rfl)
    (fun j q => dot_S1024x1024_S1024x1024_S1024x1024_1_0_0_1_n_n.lhsIdx_val_of_single rfl j q)
    (fun j q => dot_S1024x1024_S1024x1024_S1024x1024_1_0_0_1_n_n.rhsIdx_val_of_single rfl j q)
    (fun j q => by
      unfold DotDims.rhsIdx
      rw [dif_neg (show ¬(1 : Fin S1024x1024.rank) ∈ dot_S1024x1024_S1024x1024_S1024x1024_1_0_0_1_n_n.rhsBatch by decide),
        dif_pos (show (1 : Fin S1024x1024.rank) ∈ dot_S1024x1024_S1024x1024_S1024x1024_1_0_0_1_n_n.rhsNonContracting by decide)]
      rfl)
    lhs rhs p c

/-- The value of local row q from the eight loaded blocks. -/
def blockRow (v0 v1 : FVec Ideal S1024x1024 .f32) (v3 : FVec Ideal S1x1024 .f32) (v7 v8 : FVec Ideal S1024x1024 .f32)
    (v10 : FVec Ideal S1x1024 .f32) (v17 v18 : FVec Ideal S1024x1024 .f32) (q : Fin 1024) : EReal :=
  ((∑ k : Fin 1024, ((∑ j : Fin 1024, v0 (ix2 q j) * v1 (ix2 j k)) + v3 (ix2 (0 : Fin 1) k))
        * ((∑ j : Fin 1024, v7 (ix2 q j) * v8 (ix2 j k)) + v10 (ix2 (0 : Fin 1) k)))
    + ∑ k : Fin 1024, v17 (ix2 q k) * v18 (ix2 q k)) * Ideal.ofBits .f32 0x3F000000#32

/-- Tile entry (r, c) of the stored value is the value of local row q = r * 128 + c. -/
theorem stored_entry (v0 v1 : FVec Ideal S1024x1024 .f32) (v3 : FVec Ideal S1x1024 .f32) (v7 v8 : FVec Ideal S1024x1024 .f32)
    (v10 : FVec Ideal S1x1024 .f32) (v17 v18 : FVec Ideal S1024x1024 .f32) (r : Fin 8) (c : Fin 128) (q : Fin 1024)
    (hq : q.val = r.val * 128 + c.val) :
    k0_pay1 (F := Ideal) v0 v1 v3 v7 v8 v10 v17 v18 (ix2 r c) = blockRow v0 v1 v3 v7 v8 v10 v17 v18 q := by
  unfold k0_pay1
  dsimp only
  rw [Cert.LibTileCol.shapeCast_n1_ab_apply _ _ r c q hq]
  rw [mulf_apply, addf_apply, broadcast_apply, Cert.LibKeepdims.shapeCast_a_a1_apply, Cert.LibKeepdims.shapeCast_a_a1_apply,
    Cert.LibKeepdims.laneSum_apply, Cert.LibKeepdims.laneSum_apply]
  simp only [mulf_apply, addf_apply, broadcastTo_1b_ab_apply, shapeCast_self, product_entry]
  rfl

/-- The same at any tile index y: the stored value there is the value of local row q = y₀ * 128 + y₁. -/
theorem stored_at (v0 v1 : FVec Ideal S1024x1024 .f32) (v3 : FVec Ideal S1x1024 .f32) (v7 v8 : FVec Ideal S1024x1024 .f32)
    (v10 : FVec Ideal S1x1024 .f32) (v17 v18 : FVec Ideal S1024x1024 .f32) (y : S8x128.Idx) (q : Fin 1024)
    (hq : q.val = (y 0).val * 128 + (y 1).val) :
    k0_pay1 (F := Ideal) v0 v1 v3 v7 v8 v10 v17 v18 y = blockRow v0 v1 v3 v7 v8 v10 v17 v18 q := by
  rw [eq_ix2 y]
  exact stored_entry v0 v1 v3 v7 v8 v10 v17 v18 (y 0) (y 1) q hq

end Cert.KernelIdeal.BodyRows

end
-- ==== Proof.OutBlocks.lean ====
/-
  From the blocks the grid points write back to the whole output array.

  The output array is 64 x 128, written as eight 8 x 128 tiles, tile t by grid point t. Point t holds rows
  t * 1024 ... t * 1024 + 1023 of the four row-tiled inputs and the whole of the weights and bias rows. Tile entry
  (r, c) of point t is the value of global row t * 1024 + r * 128 + c = (t * 8 + r) * 128 + c: the array entry at
  (i₀, i₁) is rowMean of row i₀ * 128 + i₁. The eight tiles cover the array.
-/
import proofs.«105933_j35811437314203_2_alg».proof.Proof.Gen.KernelIdeal.Frame
import proofs.«105933_j35811437314203_2_alg».proof.Proof.BodyRows
import proofs.«105933_j35811437314203_2_alg».proof.Proof.HalfSum
import Idealize.ShloMosaic.Lib.Pipeline.Value

set_option maxRecDepth 16384

noncomputable section

namespace Cert.KernelIdeal.OutBlocks

open Cert.KernelIdeal Cert.KernelIdeal.Gen Cert.KernelIdeal.BodyRows Cert.HalfSum
open Idealize.ShloMosaic Idealize.ShloMosaic.TcCoe Idealize.ShloMosaic.ValueIdx Idealize.SL.Sem

variable (m : (ℓ : Loc nD τ sig) → Buf (Elt Ideal) ℓ)

theorem zero_offsets : (![0, 0] : Fin 2 → Nat) = fun _ => 0 := funext fun a => by fin_cases a <;> rfl

/-- The global row an entry of the 64 x 128 output array stands for. -/
def rowOf (i : S64x128.Idx) : Fin 8192 :=
  ⟨(i 0).val * 128 + (i 1).val, by
    have h0 : (i 0).val < 64 := (i 0).isLt
    have h1 : (i 1).val < 128 := (i 1).isLt
    omega⟩

/-- The whole output array as one function of the arrays the region finds: entry i is rowMean of row rowOf i,
    the biases read from their one-row arrays. -/
def tiles (a0 a1 : S8192x1024.Idx → EReal) (a2 a3 : S1024x1024.Idx → EReal) (a4 a5 : S1x1024.Idx → EReal)
    (a6 a7 : S8192x1024.Idx → EReal) : S64x128.Idx → EReal :=
  fun i => rowMean a0 a1 a2 a3 (fun k => a4 (ix2 (0 : Fin 1) k)) (fun k => a5 (ix2 (0 : Fin 1) k)) a6 a7 (rowOf i)

/-- A local row's value from blocks that are the arrays' rows: if local row q of each row-tiled block is global row
    n of its array, and the other blocks are their whole arrays, the block value of q is rowMean of n. -/
theorem blockRow_eq_rowMean (a0 a1 : S8192x1024.Idx → EReal) (a2 a3 : S1024x1024.Idx → EReal) (a4 a5 : S1x1024.Idx → EReal)
    (a6 a7 : S8192x1024.Idx → EReal)
    (b0 b2 : FVec Ideal S1024x1024 .f32) (b4 : FVec Ideal S1x1024 .f32) (b1 b3 : FVec Ideal S1024x1024 .f32)
    (b5 : FVec Ideal S1x1024 .f32) (b6 b7 : FVec Ideal S1024x1024 .f32) (q : Fin 1024) (n : Fin 8192)
    (h0 : ∀ j : Fin 1024, b0 (ix2 q j) = a0 (ix2 n j)) (h1 : ∀ j : Fin 1024, b1 (ix2 q j) = a1 (ix2 n j))
    (h2 : b2 = a2) (h3 : b3 = a3) (h4 : b4 = a4) (h5 : b5 = a5)
    (h6 : ∀ j : Fin 1024, b6 (ix2 q j) = a6 (ix2 n j)) (h7 : ∀ j : Fin 1024, b7 (ix2 q j) = a7 (ix2 n j)) :
    blockRow b0 b2 b4 b1 b3 b5 b6 b7 q
      = rowMean a0 a1 a2 a3 (fun k => a4 (ix2 (0 : Fin 1) k)) (fun k => a5 (ix2 (0 : Fin 1) k)) a6 a7 n := by
  subst h2 h3 h4 h5
  unfold blockRow rowMean
  simp only [h0, h1, h6, h7]

/-- The printed index maps over the grid: the row-tiled inputs move with the output on axis 0 and stay at 0 on axis 1;
    the weights and bias rows stay at block (0, 0); the output's block row is below 8. -/
theorem index_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_6.index t (0 : Fin 2) = win0_8.index t (0 : Fin 2) ∧ win0_6.index t (1 : Fin 2) = 0
    ∧ win0_7.index t (0 : Fin 2) = win0_8.index t (0 : Fin 2) ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_8.index t (1 : Fin 2) = 0 ∧ win0_8.index t (0 : Fin 2) ≤ 7 :=
  (by decide +kernel : ∀ t : Fin grid0.N, _)

/-- Every block row of the output is some point's. -/
theorem index_onto : ∀ b : Fin 8, ∃ t : Fin cfg0.N, win0_8.index t = ![b.val, 0] :=
  (by decide +kernel : ∀ b : Fin 8, ∃ t : Fin grid0.N, win0_8.index t = ![b.val, 0])

/-- What point t writes back is tile t of `tiles` of the arrays as the region finds them. -/
theorem flushed_eq (c : Dev nD) (t : Fin cfg0.N) :
    (dats m 0 c).flushed 8 t = ((cfg0.win 8).blk t).view.read (Elt Ideal)
      (tiles (V m c main_arg0) (V m c main_arg1) (V m c main_arg2) (V m c main_arg3) (V m c main_v0) (V m c main_v1)
        (V m c main_arg6) (V m c main_arg7)) := by
  show (cfg0.win 8).cut (grid0.coords t) ((dats m 0 c).after 8 t) = _
  rw [after0_8]
  unfold out0_8
  rw [View.canon_unit_zero zero_offsets]
  simp only [View.ld_unit_zero (S := S1024x1024) zero_offsets, View.ld_unit_zero (S := S1x1024) zero_offsets]
  obtain ⟨e00, e01, e10, e11, e60, e61, e70, e71, e20, e21, e30, e31, e40, e41, e50, e51, e81, e8le⟩ := index_facts t
  funext y
  show k0_pay1 (F := Ideal) (iblk m c 0 t) (iblk m c 2 t) (iblk m c 4 t) (iblk m c 1 t) (iblk m c 3 t) (iblk m c 5 t)
      (iblk m c 6 t) (iblk m c 7 t) y
    = tiles (V m c main_arg0) (V m c main_arg1) (V m c main_arg2) (V m c main_arg3) (V m c main_v0) (V m c main_v1)
        (V m c main_arg6) (V m c main_arg7) (((cfg0.win 8).blk t).view.emb y)
  have hy0 : (y 0).val < 8 := (y 0).isLt
  have hy1 : (y 1).val < 128 := (y 1).isLt
  refine (stored_at (iblk m c 0 t) (iblk m c 2 t) (iblk m c 4 t) (iblk m c 1 t) (iblk m c 3 t) (iblk m c 5 t)
    (iblk m c 6 t) (iblk m c 7 t) y ⟨(y 0).val * 128 + (y 1).val, by omega⟩ rfl).trans ?_
  show blockRow (iblk m c 0 t) (iblk m c 2 t) (iblk m c 4 t) (iblk m c 1 t) (iblk m c 3 t) (iblk m c 5 t)
      (iblk m c 6 t) (iblk m c 7 t) ⟨(y 0).val * 128 + (y 1).val, by omega⟩
    = rowMean (V m c main_arg0) (V m c main_arg1) (V m c main_arg2) (V m c main_arg3)
        (fun k => V m c main_v0 (ix2 (0 : Fin 1) k)) (fun k => V m c main_v1 (ix2 (0 : Fin 1) k))
        (V m c main_arg6) (V m c main_arg7) (rowOf (((cfg0.win 8).blk t).view.emb y))
  refine blockRow_eq_rowMean (V m c main_arg0) (V m c main_arg1) (V m c main_arg2) (V m c main_arg3) (V m c main_v0)
    (V m c main_v1) (V m c main_arg6) (V m c main_arg7)
    (iblk m c 0 t) (iblk m c 2 t) (iblk m c 4 t) (iblk m c 1 t) (iblk m c 3 t) (iblk m c 5 t) (iblk m c 6 t) (iblk m c 7 t)
    ⟨(y 0).val * 128 + (y 1).val, by omega⟩ (rowOf (((cfg0.win 8).blk t).view.emb y)) ?_ ?_ ?_ ?_ ?_ ?_ ?_ ?_
  · intro j
    show V m c main_arg0 (((cfg0.win 0).blk t).view.emb (ix2 (⟨(y 0).val * 128 + (y 1).val, by omega⟩ : Fin 1024) j))
      = V m c main_arg0 (ix2 (rowOf (((cfg0.win 8).blk t).view.emb y)) j)
    refine congrArg (V m c main_arg0) (funext fun a => Fin.ext ?_)
    match a with
    | ⟨0, _⟩ =>
      show win0_0.index t (0 : Fin 2) * 1024 + 1 * ((y 0).val * 128 + (y 1).val)
        = (win0_8.index t (0 : Fin 2) * 8 + 1 * (y 0).val) * 128 + (win0_8.index t (1 : Fin 2) * 128 + 1 * (y 1).val)
      omega
    | ⟨1, _⟩ =>
      show win0_0.index t (1 : Fin 2) * 1024 + 1 * j.val = j.val
      omega
  · intro j
    show V m c main_arg1 (((cfg0.win 1).blk t).view.emb (ix2 (⟨(y 0).val * 128 + (y 1).val, by omega⟩ : Fin 1024) j))
      = V m c main_arg1 (ix2 (rowOf (((cfg0.win 8).blk t).view.emb y)) j)
    refine congrArg (V m c main_arg1) (funext fun a => Fin.ext ?_)
    match a with
    | ⟨0, _⟩ =>
      show win0_1.index t (0 : Fin 2) * 1024 + 1 * ((y 0).val * 128 + (y 1).val)
        = (win0_8.index t (0 : Fin 2) * 8 + 1 * (y 0).val) * 128 + (win0_8.index t (1 : Fin 2) * 128 + 1 * (y 1).val)
      omega
    | ⟨1, _⟩ =>
      show win0_1.index t (1 : Fin 2) * 1024 + 1 * j.val = j.val
      omega
  · funext z
    show V m c main_arg2 (((cfg0.win 2).blk t).view.emb z) = V m c main_arg2 z
    refine congrArg (V m c main_arg2) (funext fun a => Fin.ext ?_)
    match a with
    | ⟨0, _⟩ =>
      show win0_2.index t (0 : Fin 2) * 1024 + 1 * (z 0).val = (z 0).val
      omega
    | ⟨1, _⟩ =>
      show win0_2.index t (1 : Fin 2) * 1024 + 1 * (z 1).val = (z 1).val
      omega
  · funext z
    show V m c main_arg3 (((cfg0.win 3).blk t).view.emb z) = V m c main_arg3 z
    refine congrArg (V m c main_arg3) (funext fun a => Fin.ext ?_)
    match a with
    | ⟨0, _⟩ =>
      show win0_3.index t (0 : Fin 2) * 1024 + 1 * (z 0).val = (z 0).val
      omega
    | ⟨1, _⟩ =>
      show win0_3.index t (1 : Fin 2) * 1024 + 1 * (z 1).val = (z 1).val
      omega
  · funext z
    show V m c main_v0 (((cfg0.win 4).blk t).view.emb z) = V m c main_v0 z
    refine congrArg (V m c main_v0) (funext fun a => Fin.ext ?_)
    match a with
    | ⟨0, _⟩ =>
      show win0_4.index t (0 : Fin 2) * 1 + 1 * (z 0).val = (z 0).val
      omega
    | ⟨1, _⟩ =>
      show win0_4.index t (1 : Fin 2) * 1024 + 1 * (z 1).val = (z 1).val
      omega
  · funext z
    show V m c main_v1 (((cfg0.win 5).blk t).view.emb z) = V m c main_v1 z
    refine congrArg (V m c main_v1) (funext fun a => Fin.ext ?_)
    match a with
    | ⟨0, _⟩ =>
      show win0_5.index t (0 : Fin 2) * 1 + 1 * (z 0).val = (z 0).val
      omega
    | ⟨1, _⟩ =>
      show win0_5.index t (1 : Fin 2) * 1024 + 1 * (z 1).val = (z 1).val
      omega
  · intro j
    show V m c main_arg6 (((cfg0.win 6).blk t).view.emb (ix2 (⟨(y 0).val * 128 + (y 1).val, by omega⟩ : Fin 1024) j))
      = V m c main_arg6 (ix2 (rowOf (((cfg0.win 8).blk t).view.emb y)) j)
    refine congrArg (V m c main_arg6) (funext fun a => Fin.ext ?_)
    match a with
    | ⟨0, _⟩ =>
      show win0_6.index t (0 : Fin 2) * 1024 + 1 * ((y 0).val * 128 + (y 1).val)
        = (win0_8.index t (0 : Fin 2) * 8 + 1 * (y 0).val) * 128 + (win0_8.index t (1 : Fin 2) * 128 + 1 * (y 1).val)
      omega
    | ⟨1, _⟩ =>
      show win0_6.index t (1 : Fin 2) * 1024 + 1 * j.val = j.val
      omega
  · intro j
    show V m c main_arg7 (((cfg0.win 7).blk t).view.emb (ix2 (⟨(y 0).val * 128 + (y 1).val, by omega⟩ : Fin 1024) j))
      = V m c main_arg7 (ix2 (rowOf (((cfg0.win 8).blk t).view.emb y)) j)
    refine congrArg (V m c main_arg7) (funext fun a => Fin.ext ?_)
    match a with
    | ⟨0, _⟩ =>
      show win0_7.index t (0 : Fin 2) * 1024 + 1 * ((y 0).val * 128 + (y 1).val)
        = (win0_8.index t (0 : Fin 2) * 8 + 1 * (y 0).val) * 128 + (win0_8.index t (1 : Fin 2) * 128 + 1 * (y 1).val)
      omega
    | ⟨1, _⟩ =>
      show win0_7.index t (1 : Fin 2) * 1024 + 1 * j.val = j.val
      omega

/-- An index of the output array is in point t's tile iff each coordinate is in the tile's range on its axis. -/
theorem mem_tile (t : Fin cfg0.N) (i : S64x128.Idx) :
    i ∈ ((cfg0.win 8).blk t).view.set ↔ ∀ a : Fin 2, win0_8.index t a * S8x128.size a ≤ (i a).val
      ∧ (i a).val < win0_8.index t a * S8x128.size a + S8x128.size a := by
  show i ∈ ((View.whole main_v2).slice (win0_8.rect t)).set ↔ _
  rw [View.set_slice_whole, Rect.mem_set_unit]
  exact Iff.rfl

/-- The eight tiles cover the array: row i₀ lies in the tile of point i₀ / 8. -/
theorem covered (i : S64x128.Idx) :
    ∃ t : Fin cfg0.N, (cfg0.win 8).flush t = true ∧ i ∈ ((cfg0.win 8).blk t).view.set := by
  have hi0 : (i 0).val < 64 := (i 0).isLt
  have hi1 : (i 1).val < 128 := (i 1).isLt
  obtain ⟨t, ht⟩ := index_onto ⟨(i 0).val / 8, by omega⟩
  have q0 : win0_8.index t (0 : Fin 2) = (i 0).val / 8 := congrFun ht 0
  have q1 : win0_8.index t (1 : Fin 2) = 0 := congrFun ht 1
  refine ⟨t, flush0_8 t, ?_⟩
  rw [mem_tile]
  intro a
  match a with
  | ⟨0, _⟩ =>
    show win0_8.index t (0 : Fin 2) * 8 ≤ (i 0).val ∧ (i 0).val < win0_8.index t (0 : Fin 2) * 8 + 8
    omega
  | ⟨1, _⟩ =>
    show win0_8.index t (1 : Fin 2) * 128 ≤ (i 1).val ∧ (i 1).val < win0_8.index t (1 : Fin 2) * 128 + 128
    omega

/-- The output array after the run is `tiles` of the arrays as the region finds them. -/
theorem final (c : Dev nD) : (dats m 0 c).arrAt 8 cfg0.N
    = tiles (V m c main_arg0) (V m c main_arg1) (V m c main_arg2) (V m c main_arg3) (V m c main_v0) (V m c main_v1)
        (V m c main_arg6) (V m c main_arg7) :=
  (dats m 0 c).arrAt_eq_of_cover 8 _ (fun t _ => flushed_eq m c t) covered

end Cert.KernelIdeal.OutBlocks

end
-- ==== Proof.KernelRun.lean ====
/-
  The kernel's run with its result named.

  Around the grid the program does three layout steps: each bias vector of 1024 entries is re-laid as a one-row
  1 x 1024 array before the grid, so the bias row's entry (0, k) is the vector's entry k; and the 64 x 128 output
  array is re-laid as the 8192 x 1 result after the grid, in row-major order, so result row n is the array entry
  (n / 128, n % 128), which stands for global row n. Hence result row n is rowMean of row n of the arguments.
-/
import proofs.«105933_j35811437314203_2_alg».proof.Proof.Gen.KernelIdeal.Frame
import proofs.«105933_j35811437314203_2_alg».proof.Proof.OutBlocks
import proofs.«105933_j35811437314203_2_alg».proof.Proof.LibTileCol
import Idealize.ShloMosaic.Lib.StableHlo.Run
import Idealize.ShloMosaic.Lib.ValueLayout

set_option maxRecDepth 16384

noncomputable section

namespace Cert.KernelIdeal.KernelRun

open Cert.KernelIdeal Cert.KernelIdeal.Gen Cert.KernelIdeal.OutBlocks Cert.HalfSum
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first bias row as the grid finds it: the first bias vector re-laid as 1 x 1024. -/
theorem bias_row0 (c : Dev nD) : (V m c main_v0 : S1x1024.Idx → EReal)
    = shapeCast S1x1024 (m ((c : Thread nD τ).loc main_arg4)) shapeCasts_S1024_S1x1024 := by
  show StableHlo.after hostOps0 (fun b => m (c, b)) (Proc.devRef .tc main_v0) = _
  after_results
  rfl

/-- The second bias row likewise. -/
theorem bias_row1 (c : Dev nD) : (V m c main_v1 : S1x1024.Idx → EReal)
    = shapeCast S1x1024 (m ((c : Thread nD τ).loc main_arg5)) shapeCasts_S1024_S1x1024 := by
  show StableHlo.after hostOps0 (fun b => m (c, b)) (Proc.devRef .tc main_v1) = _
  after_results
  rfl

/-- Entry (0, k) of a bias row is entry k of its vector. -/
theorem bias_entries0 (c : Dev nD) : (fun k : Fin 1024 => V m c main_v0 (ix2 (0 : Fin 1) k))
    = fun k => m ((c : Thread nD τ).loc main_arg4) (ix1 k) :=
  funext fun k => by
    rw [bias_row0]
    exact shapeCast_a_1a_apply _ _ (0 : Fin 1) k

theorem bias_entries1 (c : Dev nD) : (fun k : Fin 1024 => V m c main_v1 (ix2 (0 : Fin 1) k))
    = fun k => m ((c : Thread nD τ).loc main_arg5) (ix1 k) :=
  funext fun k => by
    rw [bias_row1]
    exact shapeCast_a_1a_apply _ _ (0 : Fin 1) k

/-- The program's result, as the lines after the grid leave it: row n holds rowMean of row n of the arguments. -/
theorem result_eq (c : Dev nD) :
    Pipeline.afterTail₀ cfgs (dats m) 0 (V0 m) [hostOps1] c main_v3
      = fun i => rowMean (m ((c : Thread nD τ).loc main_arg0)) (m ((c : Thread nD τ).loc main_arg1))
          (m ((c : Thread nD τ).loc main_arg2)) (m ((c : Thread nD τ).loc main_arg3))
          (fun k => m ((c : Thread nD τ).loc main_arg4) (ix1 k)) (fun k => m ((c : Thread nD τ).loc main_arg5) (ix1 k))
          (m ((c : Thread nD τ).loc main_arg6)) (m ((c : Thread nD τ).loc main_arg7)) ⟨(i 0).val, (i 0).isLt⟩ := by
  unfold Pipeline.afterTail₀
  show StableHlo.after hostOps1 _ (Proc.devRef .tc main_v3) = _
  after_results
  funext i
  show shapeCast S8192x1 (Pipeline.withArrays spec0 c (V0 m c) (fun w => (dats m 0 c).arrAt w cfg0.N)
      (Proc.devRef .tc (Pipeline.arrRef spec0 8))) shapeCasts_S64x128_S8192x1 i = _
  rw [Pipeline.withArrays_arr spec0 launch0.win.arr_inj c _ _ 8, final]
  obtain ⟨n, u, rfl⟩ : ∃ (n : Fin 8192) (u : Fin 1), i = ix2 n u := ⟨i 0, i 1, eq_ix2 i⟩
  have hn : n.val < 8192 := n.isLt
  refine (Cert.LibTileCol.shapeCast_ab_n1_apply _ _ n u (⟨n.val / 128, by omega⟩ : Fin 64)
    (⟨n.val % 128, Nat.mod_lt _ (by decide)⟩ : Fin 128) (by show n.val = n.val / 128 * 128 + n.val % 128; omega)).trans ?_
  have hrow : rowOf (ix2 (⟨n.val / 128, by omega⟩ : Fin 64) (⟨n.val % 128, Nat.mod_lt _ (by decide)⟩ : Fin 128)) = n :=
    Fin.ext (by show n.val / 128 * 128 + n.val % 128 = n.val; omega)
  unfold tiles
  rw [hrow, bias_entries0, bias_entries1, V_main_arg0, V_main_arg1, V_main_arg2, V_main_arg3, V_main_arg6, V_main_arg7]
  rfl

/-- Every weakly fair execution of the kernel program terminates with its result at rowMean, row by row, and its
    arguments unchanged. -/
theorem run : θ_run defs (onTc (τ := τ) (main (F := Ideal))) ⟨m, fun _ => 0, ρ⟩ fun r => ∀ c : Dev nD,
      r.2.mem ((c.tc : Thread nD τ).loc main_v3)
        = (fun i => rowMean (m ((c : Thread nD τ).loc main_arg0)) (m ((c : Thread nD τ).loc main_arg1))
          (m ((c : Thread nD τ).loc main_arg2)) (m ((c : Thread nD τ).loc main_arg3))
          (fun k => m ((c : Thread nD τ).loc main_arg4) (ix1 k)) (fun k => m ((c : Thread nD τ).loc main_arg5) (ix1 k))
          (m ((c : Thread nD τ).loc main_arg6)) (m ((c : Thread nD τ).loc main_arg7)) ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KernelRun

end
-- ==== Proof.lean ====
/-
  The kernel and its reference compute the same 8192 x 1 result on the extended reals.

  Both take two 8192 x 1024 inputs A, B, two 1024 x 1024 weights U, W, two bias vectors u, w and two further
  8192 x 1024 inputs S, T, and return for each row n

      ( sum_k (A U + u)[n,k] * (B W + w)[n,k]  +  sum_k S[n,k] * T[n,k] ) / 2.

  The kernel walks the rows 1024 at a time, keeps the weights and biases resident, multiplies the sum by the word of
  1/2 and writes each group of 1024 row values as an 8 x 128 tile of a 64 x 128 array, which is re-laid as 8192 x 1
  afterwards. The reference works on whole arrays, puts the two row sums side by side, sums that two-entry row from a
  zero initial value and divides by the word of 2. The only arithmetic law between the two is that dividing an
  extended real by the real 2 is multiplying it by the real 1/2 (and that adding the zero word changes nothing); the
  rest is the same sums of the same products at the same indices. The law holds at the infinities too, so the
  finiteness of the inputs is not used.

  HalfSum states the common value (rowMean) and the law; RefRows reads the reference operation by operation down to
  rowMean; BodyRows reads what the kernel body stores at each tile entry; OutBlocks joins the eight tiles into the
  whole output array; KernelRun reads the layout steps before and after the grid and names the kernel's result.
-/
import proofs.«105933_j35811437314203_2_alg».proof.Defs
import proofs.«105933_j35811437314203_2_alg».proof.Proof.Gen.Kernel
import proofs.«105933_j35811437314203_2_alg».proof.Proof.Gen.Kernel.Skeleton
import proofs.«105933_j35811437314203_2_alg».proof.Proof.Gen.Kernel.Launch
import proofs.«105933_j35811437314203_2_alg».proof.Proof.Gen.Kernel.Points
import proofs.«105933_j35811437314203_2_alg».proof.Proof.Gen.Kernel.Frame
import proofs.«105933_j35811437314203_2_alg».proof.Proof.Gen.KernelIdeal
import proofs.«105933_j35811437314203_2_alg».proof.Proof.Gen.KernelIdeal.Skeleton
import proofs.«105933_j35811437314203_2_alg».proof.Proof.Gen.KernelIdeal.Launch
import proofs.«105933_j35811437314203_2_alg».proof.Proof.Gen.KernelIdeal.Points
import proofs.«105933_j35811437314203_2_alg».proof.Proof.Gen.KernelIdeal.Frame
import proofs.«105933_j35811437314203_2_alg».proof.Proof.Gen.ReferenceIdeal
import proofs.«105933_j35811437314203_2_alg».proof.Proof.Gen.ReferenceIdeal.Run
import proofs.«105933_j35811437314203_2_alg».proof.Proof.Gen.ReferenceIdeal.Read
import proofs.«105933_j35811437314203_2_alg».proof.Proof.Gen.Pre_finite_inputs
import proofs.«105933_j35811437314203_2_alg».proof.Proof.RefRows
import proofs.«105933_j35811437314203_2_alg».proof.Proof.KernelRun
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From memories agreeing on the arguments both programs end with rowMean of the arguments in every row: the
    kernel by KernelRun.run, the reference by its run read down to rowMean. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _ _ _ _).trans ?_
  rw [Cert.ReferenceIdeal.RefRows.ref_rows]
  obtain ⟨a0, a1, a2, a3, a4, a5, a6, a7⟩ := hagree c
  rw [a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
